-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel

variable [Facts]

def fn {F : FTy → Type} [FloatOps F] (main_arg0 : FVec F S16384x2 .f32) (main_arg1 : FVec F S16384x2 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S16384x2 .f32 := Host.absf main_arg1
  let main_cst_0 : FVec F S_ .f32 := constant S_ .f32 0x7F800000#32
  let main_v5 : FVec F S16384x2 .f32 := broadcastInDim S16384x2 ![] bcast_S_S16384x2 main_cst_0
  let main_v6 : IVec S16384x2 1 := cmpf .olt main_v4 main_v5
  let main_c_1 : IVec S_ 1 := constantI S_ 1 1#1
  let main_v7 : IVec S_ 1 := (fun x v => Host.reduce IntOp.andi x v reducesTo_S16384x2_S_d0_1 h_S_) main_v6 main_c_1
  let main_v8 : IVec S_ 1 := andi main_v3 main_v7
  main_v8
-- ==== Kernel.lean ====
abbrev S16384x2 : Shape := ⟨2, ![16384, 2]⟩
abbrev S2x16384 : Shape := ⟨2, ![2, 16384]⟩
abbrev S16384x1 : Shape := ⟨2, ![16384, 1]⟩
abbrev S1024x2 : Shape := ⟨2, ![1024, 2]⟩
abbrev S2x4096 : Shape := ⟨2, ![2, 4096]⟩
abbrev S1024x1 : Shape := ⟨2, ![1024, 1]⟩
abbrev S1x4096 : Shape := ⟨2, ![1, 4096]⟩
abbrev S1024x4096 : Shape := ⟨2, ![1024, 4096]⟩
abbrev S1024 : Shape := ⟨1, ![1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16384x2, .f32⟩
  | .hbm, ⟨1, _⟩ => ⟨S16384x2, .f32⟩
  | .hbm, ⟨2, _⟩ => ⟨S2x16384, .f32⟩
  | .hbm, ⟨3, _⟩ => ⟨S16384x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x2, .f32⟩
  | .local _ .vmem, ⟨1, _⟩ => ⟨S1024x2, .f32⟩
  | .local _ .vmem, ⟨2, _⟩ => ⟨S2x4096, .f32⟩
  | .local _ .vmem, ⟨3, _⟩ => ⟨S2x4096, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_9 : BitVec 32 := 0#32
  let v33 : BitVec 1 := Scalar.cmpi .ne v32 c0_i32_9
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16384x2_S2x16384_1_0 : S16384x2.Transposes [1, 0] S2x16384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2_S1024x2_0_0 : ∀ a, (![0, 0] : Fin 2 → Nat) a + S1024x2.size a ≤ S1024x2.size a
  h_S1024x2 : 0 < S1024x2.numel
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  slices_S2x4096_o0_0_S1x4096 : S2x4096.Slices ![0, 0] S1x4096
  slices_S2x4096_o1_0_S1x4096 : S2x4096.Slices ![1, 0] S1x4096
  slices_S1024x2_o0_0_S1024x1 : S1024x2.Slices ![0, 0] S1024x1
  broadcasts_S1024x1_S1024x4096 : S1024x1.Broadcasts S1024x4096
  broadcasts_S1x4096_S1024x4096 : S1x4096.Broadcasts S1024x4096
  slices_S1024x2_o0_1_S1024x1 : S1024x2.Slices ![0, 1] S1024x1
  reduces_S1024x4096_S1024 : S1024x4096.Reduces [1] S1024
  shapeCasts_S1024_S1024x1 : S1024.ShapeCasts S1024x1
  reduces_S1024x2_S1024 : S1024x2.Reduces [1] S1024
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S16384x2.size a
  hwx0_0 : ∀ i : grid0.Coords, EltTy.bits .f32 = 32 ∨ (Rect.block (s := S16384x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096.size a ≤ S2x16384.size a
  hwx0_1 : ∀ i : grid0.Coords, EltTy.bits .f32 = 32 ∨ (Rect.block (s := S2x16384) S2x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)

variable [Facts₀]

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x16384 : Shape := ⟨2, ![2, 16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384x2, .f32⟩
  | .hbm, ⟨2, _⟩ => ⟨S16384x2, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x2, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S2x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S16384x2_S16384_d1 : S16384x2.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x2_S2x16384_1_0 : S16384x2.Transposes [1, 0] S2x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x2_S2x16384_S16384x16384_1_0_0_1_n_n_wf : DotDims.WF S16384x2 S2x16384 S16384x16384 [1] [0] [0] [1] [] []

variable [Facts₀]

def dot_S16384x2_S2x16384_S16384x16384_1_0_0_1_n_n : DotDims S16384x2 S2x16384 S16384x16384 where
  lhsContracting := [1]
  rhsContracting := [0]
  lhsNonContracting := [0]
  rhsNonContracting := [1]
  lhsBatch := []
  rhsBatch := []
  wf := dot_S16384x2_S2x16384_S16384x16384_1_0_0_1_n_n_wf

class Facts : Prop extends Facts₀ where

variable [Facts]
-- ==== Proof.Spec.lean ====
/-
  The mean nearest-neighbour squared distance as a function of the two point sets, in the two arrangements the
  programs compute it in, and the laws that join them.

  For a point a_r of the first set and a point b_c of the second, both in the plane,
      |a_r|^2 + |b_c|^2 - 2 (a_r . b_c)
  is the squared distance.  One arrangement takes the minimum over c of the whole expression; the other takes the
  minimum over c of |b_c|^2 - 2 (a_r . b_c) only, one block of columns after another, and adds |a_r|^2 afterwards.  On
  finite coordinates the two agree: adding a real number commutes with a minimum (also with the empty one, +inf), and
  the two groupings of the three terms are equal in the reals.  With infinite coordinates they need not agree, which is
  why the statement below asks for real entries.
-/
import Idealize.ShloMosaic.PureOps.Ideal
import Idealize.ShloMosaic.PureOps.Ideal.Laws
import Idealize.ShloMosaic.Lib.ValueIdx

noncomputable section

namespace Cert.NearestMean

open Idealize.ShloMosaic Idealize.ShloMosaic.ValueIdx

/-! ## The three float literals of the programs -/

/-- The pattern of `2.0` denotes the real 2. -/
theorem ofBits_two : Ideal.ofBits .f32 0x40000000#32 = ((2 : ℝ) : EReal) := by
  simp [Ideal.ofBits, Ideal.ieee, -EReal.coe_mul]; norm_num

/-- The pattern of `+inf` denotes the top element. -/
theorem ofBits_inf : Ideal.ofBits .f32 0x7F800000#32 = ⊤ := by
  simp [Ideal.ofBits, Ideal.ieee]

/-! ## Minima over finite index sets -/

/-- Adding a real number commutes with a minimum taken from +inf. -/
theorem coe_add_fold_min {ι : Type*} (s : Finset ι) (x : ℝ) (f : ι → EReal) :
    (x : EReal) + s.fold min ⊤ f = s.fold min ⊤ (fun i => (x : EReal) + f i) := by
  classical
  induction s using Finset.induction_on with
  | empty => simp only [Finset.fold_empty, EReal.coe_add_top]
  | insert a s ha ih =>
    rw [Finset.fold_insert ha, Finset.fold_insert ha, ← ih]
    exact Monotone.map_min (f := fun y : EReal => (x : EReal) + y) (fun _ _ h => add_le_add le_rfl h)

/-- A value below exactly the common lower bounds of a finite family is the family's minimum from +inf. -/
theorem eq_fold_min_of_forall_le_iff {ι : Type*} [Fintype ι] (v : EReal) (g : ι → EReal)
    (h : ∀ z : EReal, z ≤ v ↔ ∀ i, z ≤ g i) : v = Finset.univ.fold min ⊤ g :=
  eq_of_forall_le_iff fun z => by
    rw [h, Finset.le_fold_min]
    exact ⟨fun hz => ⟨le_top, fun i _ => hz i⟩, fun hz i => hz.2 i (Finset.mem_univ i)⟩

/-- Column `q` of block `j` of the 16384 columns cut into four blocks of 4096. -/
def col (j : ℕ) (hj : j < 4) (q : Fin 4096) : Fin 16384 := ⟨j * 4096 + q.val, by have := q.isLt; omega⟩

/-- The running minimum over the first `j` blocks of columns, joined with the minimum over block `j`, is the running
    minimum over the first `j + 1` blocks: stated by lower bounds, so that no order of the columns enters. -/
theorem prefix_step (g : Fin 16384 → EReal) (j : ℕ) (hj : j < 4) (P : EReal)
    (hP : ∀ z : EReal, z ≤ P ↔ ∀ c : Fin 16384, c.val < j * 4096 → z ≤ g c) (z : EReal) :
    z ≤ min P (Finset.univ.fold min ⊤ (fun q : Fin 4096 => g (col j hj q)))
      ↔ ∀ c : Fin 16384, c.val < (j + 1) * 4096 → z ≤ g c := by
  rw [le_min_iff, hP, Finset.le_fold_min]
  constructor
  · rintro ⟨h1, -, h2⟩ c hc
    by_cases hlt : c.val < j * 4096
    · exact h1 c hlt
    · have hq : c.val - j * 4096 < 4096 := by omega
      have e : c = col j hj ⟨c.val - j * 4096, hq⟩ := Fin.ext (by simp only [col]; omega)
      rw [e]; exact h2 _ (Finset.mem_univ _)
  · intro h
    refine ⟨fun c hc => h c (by omega), le_top, fun q _ => h _ ?_⟩
    have := q.isLt
    simp only [col]; omega

/-! ## The two arrangements -/

/-- A set of 16384 points of the plane, as the arrays hold it. -/
abbrev Pts := (⟨2, ![16384, 2]⟩ : Shape).Idx → EReal

/-- `|b_c|^2 - 2 (a_r . b_c)`: what the blockwise arrangement minimizes over `c`. -/
def pairK (a b : Pts) (r c : Fin 16384) : EReal :=
  (b (ix2 c 0) * b (ix2 c 0) + b (ix2 c 1) * b (ix2 c 1))
    - Ideal.ofBits .f32 0x40000000#32 * (a (ix2 r 0) * b (ix2 c 0) + a (ix2 r 1) * b (ix2 c 1))

/-- Row `r` of the blockwise arrangement: `|a_r|^2` added to the minimum over all columns. -/
def rowK (a b : Pts) (r : Fin 16384) : EReal :=
  (∑ k : Fin 2, a (ix2 r k) * a (ix2 r k)) + Finset.univ.fold min ⊤ (fun c => pairK a b r c)

/-- `0 + |p_r|^2`, a squared norm as a sum from the zero. -/
def sqNorm (p : Pts) (r : Fin 16384) : EReal :=
  Ideal.ofBits .f32 0x00000000#32 + ∑ k : Fin 2, p (ix2 r k) * p (ix2 r k)

/-- `(|a_r|^2 + |b_c|^2) - 2 (a_r . b_c)`: the whole squared distance. -/
def pairR (a b : Pts) (r c : Fin 16384) : EReal :=
  (sqNorm a r + sqNorm b c) - Ideal.ofBits .f32 0x40000000#32 * ∑ k : Fin 2, a (ix2 r k) * b (ix2 c k)

/-- Row `r` of the direct arrangement: the minimum over all columns of the squared distance. -/
def rowR (a b : Pts) (r : Fin 16384) : EReal :=
  Finset.univ.fold min (Ideal.ofBits .f32 0x7F800000#32) (fun c => pairR a b r c)

/-- The mean of 16384 row values: their sum from the zero, divided by 16384. -/
def mean (v : Fin 16384 → EReal) : EReal :=
  Ideal.div (Ideal.ofBits .f32 0x00000000#32 + ∑ r : Fin 16384, v r) (Ideal.ofBits .f32 0x46800000#32)

/-- On real coordinates the two arrangements give the same row value. -/
theorem rowK_eq_rowR (a b : Pts) (ha : ∀ i, ∃ x : ℝ, a i = (x : EReal)) (hb : ∀ i, ∃ x : ℝ, b i = (x : EReal))
    (r : Fin 16384) : rowK a b r = rowR a b r := by
  choose A hA using ha
  choose B hB using hb
  have hK : ∀ c, pairK a b r c
      = ((B (ix2 c 0) * B (ix2 c 0) + B (ix2 c 1) * B (ix2 c 1)
          - 2 * (A (ix2 r 0) * B (ix2 c 0) + A (ix2 r 1) * B (ix2 c 1)) : ℝ) : EReal) := by
    intro c
    simp only [pairK, hA, hB, ofBits_two]
    norm_cast
  have hR : ∀ c, pairR a b r c
      = (((A (ix2 r 0) * A (ix2 r 0) + A (ix2 r 1) * A (ix2 r 1))
          + (B (ix2 c 0) * B (ix2 c 0) + B (ix2 c 1) * B (ix2 c 1)
            - 2 * (A (ix2 r 0) * B (ix2 c 0) + A (ix2 r 1) * B (ix2 c 1))) : ℝ) : EReal) := by
    intro c
    simp only [pairR, sqNorm, hA, hB, ofBits_two, Ideal.ofBits_zero_f32, Fin.sum_univ_two, zero_add]
    norm_cast
    ring
  have hN : (∑ k : Fin 2, a (ix2 r k) * a (ix2 r k))
      = ((A (ix2 r 0) * A (ix2 r 0) + A (ix2 r 1) * A (ix2 r 1) : ℝ) : EReal) := by
    simp only [hA, Fin.sum_univ_two]
    norm_cast
  unfold rowK rowR
  rw [hN, coe_add_fold_min, ofBits_inf]
  refine congrArg (Finset.univ.fold min ⊤) (funext fun c => ?_)
  rw [hK, hR]
  norm_cast

end Cert.NearestMean

end
-- ==== Proof.Finite.lean ====
/-
  The precondition says the coordinates are real numbers.

  The precondition asks, of every entry `x` of each argument array, that `|x| < +inf`, all these tests joined by "and".
  Over the extended reals `|x|` is the larger of `x` and `-x`, which is +inf exactly when `x` is one of the two
  infinities; so every entry is a real number.
-/
import proofs.«169772_j54537494724893_2_alg».proof.Pre_finite_inputs
import proofs.«169772_j54537494724893_2_alg».proof.Proof.Gen.Pre_finite_inputs
import proofs.«169772_j54537494724893_2_alg».proof.Proof.Spec
import Idealize.ShloMosaic.Lib.ReduceAll
import Idealize.ShloMosaic.Lib.ValueIdx
import Idealize.ShloMosaic.PureOps.Ideal

noncomputable section

open Idealize.ShloMosaic

namespace Cert.Pre_finite_inputs.Finite

open Cert.Pre_finite_inputs Cert.NearestMean

instance : Subsingleton S_.Idx := ⟨fun a b => funext fun d => d.elim0⟩

/-- An extended real whose absolute value is strictly below +inf is a real number. -/
theorem real_of_abs_lt_top (x : EReal) (h : Ideal.cmp .olt (max x (-x)) ⊤ = 1#1) : ∃ y : ℝ, x = (y : EReal) := by
  induction x using EReal.rec with
  | bot => simp [Ideal.cmp] at h
  | coe y => exact ⟨y, rfl⟩
  | top => simp [Ideal.cmp] at h

/-- Under the precondition every entry of both argument arrays is a real number. -/
theorem real_of_pre (a b : FVec Ideal S16384x2 .f32) (h : fn (F := Ideal) a b = fun _ => 1#1) :
    (∀ i, ∃ y : ℝ, a i = (y : EReal)) ∧ (∀ i, ∃ y : ℝ, b i = (y : EReal)) := by
  have h0 := congrFun h ValueIdx.ix0
  dsimp only [fn] at h0
  obtain ⟨ha, hb⟩ := IntOp.andi_eq_one.1 h0
  refine ⟨fun i => ?_, fun i => ?_⟩
  · have e := Host.reduce_andi_all _ _ _ _ _ ha i
    have e' : Ideal.cmp .olt (max (a i) (-(a i))) (Ideal.ofBits .f32 0x7F800000#32) = 1#1 := e
    rw [ofBits_inf] at e'
    exact real_of_abs_lt_top _ e'
  · have e := Host.reduce_andi_all _ _ _ _ _ hb i
    have e' : Ideal.cmp .olt (max (b i) (-(b i))) (Ideal.ofBits .f32 0x7F800000#32) = 1#1 := e
    rw [ofBits_inf] at e'
    exact real_of_abs_lt_top _ e'

end Cert.Pre_finite_inputs.Finite

end
-- ==== Proof.RefValue.lean ====
/-
  The direct arrangement is what the reference computes.

  Read one operation at a time, entry `(r, c)` of the reference's matrix is `(|a_r|^2 + |b_c|^2) - 2 (a_r . b_c)` with each
  squared norm a sum from the zero and the inner product a sum over the two coordinates; its row minimum from +inf over
  the 16384 columns is the specification's direct row value, and the result is the mean of the 16384 row values.
-/
import proofs.«169772_j54537494724893_2_alg».proof.Proof.Gen.ReferenceIdeal.Read
import proofs.«169772_j54537494724893_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.NearestMean

/-- A sum over the indices of a rank-1 array is the sum over its one coordinate. -/
theorem sum_idx1 {M : Type*} [AddCommMonoid M] {n : ℕ} (f : (⟨1, ![n]⟩ : Shape).Idx → M) :
    ∑ i, f i = ∑ a : Fin n, f (ix1 a) :=
  Fintype.sum_equiv ⟨fun j => j 0, fun a => ix1 a, fun j => (eq_ix1 j).symm, fun _ => rfl⟩ f (fun a => f (ix1 a))
    (fun j => congrArg f (eq_ix1 j))

theorem e_sq1 (r c : Fin 16384) (k : Fin 2) :
    idx_main_v1 (idx_main_v2 (idx_main_v7 (ix2 r c))) k = ix2 r k :=
  funext fun a => Fin.ext (by match a with | ⟨0, _⟩ => rfl | ⟨1, _⟩ => rfl)

theorem e_sq2 (r c : Fin 16384) (k : Fin 2) :
    idx_main_v4 (idx_main_v5 (idx_main_v6 (idx_main_v8 (ix2 r c)))) k = ix2 c k :=
  funext fun a => Fin.ext (by match a with | ⟨0, _⟩ => rfl | ⟨1, _⟩ => rfl)

theorem e_lhs (r c : Fin 16384) (k : Fin 2) : lidx_main_v11 (ix2 r c) k = ix2 r k :=
  funext fun a => Fin.ext (by match a with | ⟨0, _⟩ => rfl | ⟨1, _⟩ => rfl)

theorem e_rhs (r c : Fin 16384) (k : Fin 2) : idx_main_v10 (ridx_main_v11 (ix2 r c) k) = ix2 c k :=
  funext fun a => Fin.ext (by match a with | ⟨0, _⟩ => rfl | ⟨1, _⟩ => rfl)

/-- Entry `(r, c)` of the reference's matrix of squared distances. -/
theorem pair_eq (x0 x1 : (⟨S16384x2, .f32⟩ : BufTy).Contents (Elt Ideal)) (r c : Fin 16384) : val_main_v14 (F := Ideal) x0 x1 (ix2 r c) = pairR x0 x1 r c := by
  rw [val_main_v14_apply, val_main_v9_apply, val_main_v13_apply, val_main_v7_apply, val_main_v8_apply, val_main_v12_apply,
    val_main_v11_apply, val_main_v2_apply, val_main_v6_apply, val_main_v5_apply, val_main_v1_apply, val_main_v4_apply]
  simp only [val_main_v0_apply, val_main_v3_apply, val_main_v10_apply, val_main_cst_apply, val_main_cst_0_apply,
    val_main_cst_1_apply, e_sq1, e_sq2, e_lhs, e_rhs, Ideal.subf_def, Ideal.addf_def, Ideal.mulf_def, Ideal.ofBits_def]
  rfl

/-- Row `r` of the reference's column of minima. -/
theorem row_eq (x0 x1 : (⟨S16384x2, .f32⟩ : BufTy).Contents (Elt Ideal)) (r : Fin 16384) : val_main_v15 (F := Ideal) x0 x1 (ix1 r) = rowR x0 x1 r := by
  unfold val_main_v15
  have hp : ∀ c : Fin 16384, val_main_v14 (F := Ideal) x0 x1 (ix2 r c) = pairR x0 x1 r c := pair_eq x0 x1 r
  generalize val_main_v14 (F := Ideal) x0 x1 = y at hp
  have hred : S16384x16384.Reduces [1] S16384 := by decide
  have hfold := Host.reduce_eq_fold_single (α := Ideal .f32) (s := S16384x16384) (t := S16384) (u := S_) (FloatOps.minimumf (F := Ideal) (φ := .f32)) y
    (val_main_cst_2 (F := Ideal)) reducesTo_S16384x16384_S16384_d1 hred h_S_ (ix1 r)
  refine hfold.trans ?_
  unfold rowR
  refine congrArg (Finset.fold min _ · Finset.univ) (funext fun c => ?_)
  refine Eq.trans (congrArg y (funext fun a => Fin.ext ?_)) (hp c)
  match a with
  | ⟨0, _⟩ => rfl
  | ⟨1, _⟩ => rfl

/-- The reference's result is the mean of the direct arrangement's row values. -/
theorem result_eq (x0 x1 : (⟨S16384x2, .f32⟩ : BufTy).Contents (Elt Ideal)) (i : S_.Idx) :
    val_main_v17 (F := Ideal) x0 x1 i = mean (fun r => rowR x0 x1 r) := by
  rw [val_main_v17_apply, val_main_v16_apply, sum_idx1]
  simp only [row_eq, val_main_cst_3_apply, val_main_cst_4_apply, Ideal.hostDivf_def, Ideal.ofBits_def]
  rfl

end Cert.ReferenceIdeal.RefValue

end
-- ==== Proof.KernelPieces.lean ====
/-
  What one grid point leaves behind, as values.

  The body keeps a running column of 1024 minima in a scratch buffer. At a point it loads its block `x0` of 1024 points
  of the first set and its block `x1` of 4096 points of the second set (stored transposed), and overwrites the scratch
  with the entrywise minimum of the scratch and the block's row minima: `step x0 x1 old`, the second payload. At the
  first column block of a row block the scratch is first filled with +inf (the first payload), so the step starts from
  +inf there. At the last column block the row's squared norms are added to the freshly stored minima and the sum is
  written to the output block (the third payload, applied to the result of the step). Each buffer is written by whole
  covering stores, so what it holds afterwards is the last stored value.
-/
import proofs.«169772_j54537494724893_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First column block of a row block: the scratch ends at the step taken from the +inf column. -/
theorem scratch_first (c : Dev nD) (i : grid0.Coords) (arg2 : Memref sig .tc .vmem S1024x2 .f32) (harg2 : arg2.IsWhole) (arg3 : Memref sig .tc .vmem S2x4096 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x2 .f32) (x1 : Vec F S2x4096 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x2) hz, View.ld_unit_zero (S := S2x4096) hz]

/-- A middle column block: the scratch ends at the step taken from what it held. -/
theorem scratch_middle (c : Dev nD) (i : grid0.Coords) (arg2 : Memref sig .tc .vmem S1024x2 .f32) (harg2 : arg2.IsWhole) (arg3 : Memref sig .tc .vmem S2x4096 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x2 .f32) (x1 : Vec F S2x4096 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S1024x2) hz, View.ld_unit_zero (S := S2x4096) hz, View.ld_unit_zero (S := S1024x1) hz]

/-- The last column block: the scratch again ends at the step taken from what it held, -/
theorem scratch_last (c : Dev nD) (i : grid0.Coords) (arg2 : Memref sig .tc .vmem S1024x2 .f32) (harg2 : arg2.IsWhole) (arg3 : Memref sig .tc .vmem S2x4096 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x2 .f32) (x1 : Vec F S2x4096 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x2) hz, View.ld_unit_zero (S := S2x4096) hz, View.ld_unit_zero (S := S1024x1) hz]

/-- and the output block is the row norms added to that step's result. -/
theorem out_last (c : Dev nD) (i : grid0.Coords) (arg2 : Memref sig .tc .vmem S1024x2 .f32) (harg2 : arg2.IsWhole) (arg3 : Memref sig .tc .vmem S2x4096 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x2 .f32) (x1 : Vec F S2x4096 .f32) (xs0 : Vec F S1024x1 .f32) :
    out0_C_2 c i arg2 harg2 arg3 harg3 arg4 harg4 arg5 harg5 hc0 hc1 x0 x1 xs0 = k0_pay3 x0 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread, View.ld_unit_zero (S := S1024x2) hz, View.ld_unit_zero (S := S2x4096) hz, View.ld_unit_zero (S := S1024x1) hz]

end Cert.KernelIdeal.Pieces

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.KernelPayload.lean ====
/-
  The three stored values of the body read at an entry, over the extended reals.

  With `x0` the block of 1024 points of the first set (one point per row) and `x1` the block of 4096 points of the
  second set stored transposed (one point per column), the tile entry at `(p, q)` is
      (x1[0,q]^2 + x1[1,q]^2) - 2 (x0[p,0] x1[0,q] + x0[p,1] x1[1,q]),
  the step takes, in row `p`, the minimum of the old scratch entry and of the tile's row `p`, and the finish adds
  x0[p,0]^2 + x0[p,1]^2. Read through the blocks' positions in the whole arrays these are statements about the pair
  term of the specification: the step extends the set of columns whose pair terms the scratch entry bounds from below
  by one block of columns, and after the fourth block the finish yields the specification's row value.
-/
import proofs.«169772_j54537494724893_2_alg».proof.Proof.Gen.KernelIdeal.Skeleton
import proofs.«169772_j54537494724893_2_alg».proof.Proof.LibColumnLayout
import proofs.«169772_j54537494724893_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx Idealize.ShloMosaic.ColumnLayout

namespace Cert.KernelIdeal.Payload

open Cert.KernelIdeal Cert.KernelIdeal.Gen Cert.NearestMean

/-- A float minimum over the last axis of an `[a, b]` array from the +inf word, read at row `p` at the extended reals:
    the fold of `min` over the row's entries from that word's value. -/
theorem rowMin_apply {a b : ℕ} (src : FVec Ideal ⟨2, ![a, b]⟩ .f32) (h : (⟨2, ![a, b]⟩ : Shape).Reduces [1] ⟨1, ![a]⟩)
    (hφ : FKind.Formats FTy.f32) (hacc : (0x7F800000#32 : BitVec FTy.f32.bits) = FKind.minimumf.neutral .f32 hφ) (p : Fin a) :
    multiReduction .minimumf [1] ⟨1, ![a]⟩ src 0x7F800000#32 h hφ hacc (ix1 p)
      = (Finset.univ : Finset (Fin b)).fold min (Ideal.ofBits .f32 0x7F800000#32) (fun k => src (ix2 p k)) := by
  refine (multiReduction_minimumf_eq_fold src 0x7F800000#32 h hφ hacc (ix1 p)).trans ?_
  refine (h.fold_filter_drop_single _ _ src (ix1 p)).trans ?_
  refine congrArg (Finset.fold min _ · Finset.univ) (funext fun k => congrArg src (funext fun ax => Fin.ext ?_))
  match ax with
  | ⟨0, _⟩ => rfl
  | ⟨1, _⟩ => rfl

/-- The column the scratch is reset to holds +inf in every row. -/
theorem inf_column_apply (p : Fin 1024) : k0_pay1 (F := Ideal) (ix2 p 0) = Ideal.ofBits .f32 0x7F800000#32 := by
  unfold k0_pay1
  rw [shapeCast_self]
  rfl

/-- The tile entry at `(p, q)`. -/
def tileTerm (x0 : FVec Ideal S1024x2 .f32) (x1 : FVec Ideal S2x4096 .f32) (p : Fin 1024) (q : Fin 4096) : EReal :=
  (x1 (ix2 0 q) * x1 (ix2 0 q) + x1 (ix2 1 q) * x1 (ix2 1 q))
    - Ideal.ofBits .f32 0x40000000#32 * (x0 (ix2 p 0) * x1 (ix2 0 q) + x0 (ix2 p 1) * x1 (ix2 1 q))

/-- The step at row `p`: the old entry against the minimum of the tile's row. -/
theorem step_apply (x0 : FVec Ideal S1024x2 .f32) (x1 : FVec Ideal S2x4096 .f32) (v : FVec Ideal S1024x1 .f32) (p : Fin 1024) :
    k0_pay2 x0 x1 v (ix2 p 0)
      = min (v (ix2 p 0)) (Finset.univ.fold min (Ideal.ofBits .f32 0x7F800000#32) (fun q => tileTerm x0 x1 p q)) := by
  unfold k0_pay2
  dsimp only
  rw [shapeCast_self]
  refine congrArg (min (v (ix2 p 0))) ?_
  refine (shapeCast_a_a1_apply _ _ p 0).trans ?_
  refine (rowMin_apply _ _ _ _ p).trans ?_
  refine congrArg (Finset.fold min _ · Finset.univ) (funext fun q => ?_)
  simp only [subf_apply, mulf_apply, addf_apply, broadcast_apply, broadcastTo_1b_ab_apply, broadcastTo_a1_ab_apply]
  rw [slice2_axis0_apply 0 (shapeCast S2x4096 x1 _) _ (0 : Fin 1) q (0 : Fin 2) rfl,
    slice2_axis0_apply 1 (shapeCast S2x4096 x1 _) _ (0 : Fin 1) q (1 : Fin 2) rfl,
    slice2_axis1_apply 0 x0 _ p (0 : Fin 1) (0 : Fin 2) rfl,
    slice2_axis1_apply 1 x0 _ p (0 : Fin 1) (1 : Fin 2) rfl, shapeCast_self]
  rfl

/-- The finish at row `p`: the row's squared norm added to the entry it is given. -/
theorem finish_apply (x0 : FVec Ideal S1024x2 .f32) (v : FVec Ideal S1024x1 .f32) (p : Fin 1024) :
    k0_pay3 x0 v (ix2 p 0) = (∑ k : Fin 2, x0 (ix2 p k) * x0 (ix2 p k)) + v (ix2 p 0) := by
  unfold k0_pay3
  dsimp only
  refine congrArg (· + v (ix2 p 0)) ?_
  refine (shapeCast_a_a1_apply _ _ p 0).trans ?_
  exact (rowSum_apply _ _ _ _ p)

/-! ## The same, through the blocks' positions in the arrays -/

/-- The +inf column bounds no column's pair term yet: the statement about an empty set of columns. -/
theorem inf_column_lower_bounds (a b : Pts) (r : Fin 16384) (p : Fin 1024) (z : EReal) :
    z ≤ k0_pay1 (F := Ideal) (ix2 p 0) ↔ ∀ c : Fin 16384, c.val < 0 * 4096 → z ≤ pairK a b r c := by
  rw [inf_column_apply, ofBits_inf]
  exact ⟨fun _ c hc => absurd hc (by omega), fun _ => le_top⟩

/-- If row `p` of `x0` is row `r` of `a`, `x1` is column block `j` of `b` transposed, and the old entry of row `p` is below
    exactly the lower bounds of the pair terms of the columns before block `j`, then the stepped entry is below exactly the
    lower bounds of the pair terms of the columns up to and including block `j`. -/
theorem step_lower_bounds (x0 : FVec Ideal S1024x2 .f32) (x1 : FVec Ideal S2x4096 .f32) (v : FVec Ideal S1024x1 .f32)
    (a b : Pts) (r : Fin 16384) (j : ℕ) (hj : j < 4) (p : Fin 1024)
    (h0 : ∀ k : Fin 2, x0 (ix2 p k) = a (ix2 r k))
    (h1 : ∀ (k : Fin 2) (q : Fin 4096), x1 (ix2 k q) = b (ix2 (col j hj q) k))
    (hP : ∀ z : EReal, z ≤ v (ix2 p 0) ↔ ∀ c : Fin 16384, c.val < j * 4096 → z ≤ pairK a b r c)
    (z : EReal) :
    z ≤ k0_pay2 (F := Ideal) x0 x1 v (ix2 p 0) ↔ ∀ c : Fin 16384, c.val < (j + 1) * 4096 → z ≤ pairK a b r c := by
  rw [step_apply, ofBits_inf]
  have e : (fun q => tileTerm x0 x1 p q) = fun q => pairK a b r (col j hj q) := by
    funext q
    simp only [tileTerm, pairK, h0, h1]
  rw [e]
  exact prefix_step _ j hj _ hP z

/-- Once the entry of row `p` is below exactly the lower bounds of all 16384 columns' pair terms, the finish gives the
    specification's row value. -/
theorem finish_row (x0 : FVec Ideal S1024x2 .f32) (v : FVec Ideal S1024x1 .f32) (a b : Pts) (r : Fin 16384) (p : Fin 1024)
    (h0 : ∀ k : Fin 2, x0 (ix2 p k) = a (ix2 r k))
    (hP : ∀ z : EReal, z ≤ v (ix2 p 0) ↔ ∀ c : Fin 16384, c.val < 4 * 4096 → z ≤ pairK a b r c) :
    k0_pay3 (F := Ideal) x0 v (ix2 p 0) = rowK a b r := by
  rw [finish_apply]
  unfold rowK
  simp only [h0]
  refine congrArg (_ + ·) (eq_fold_min_of_forall_le_iff _ _ fun z => ?_)
  rw [hP]
  exact ⟨fun h c => h c (by have := c.isLt; omega), fun h c _ => h c⟩

end Cert.KernelIdeal.Payload

end
-- ==== Proof.KernelValue.lean ====
/-
  The value of the idealized kernel's run.

  The grid has 16 row blocks times 4 column blocks, visited row block by row block; point `t` works on rows
  `1024 (t / 4) ..` of the first set and on columns `4096 (t % 4) ..` of the second set, which the host transposed before
  the region. Along a row block the scratch column is reset at the first column block and then only lowered, so after
  the point with column block `j` its entry for a row bounds from below exactly the pair terms of the columns before
  `4096 (j + 1)` — by induction on the point, each step extending the set of columns by one block. At the fourth column
  block the entry therefore is the minimum over all 16384 columns, the output block written there is the
  specification's blockwise row value, and the sixteen written blocks tile the output column. The host then sums the
  column from the zero and divides by 16384: the mean of the row values.
-/
import proofs.«169772_j54537494724893_2_alg».proof.Proof.Gen.KernelIdeal.Frame
import proofs.«169772_j54537494724893_2_alg».proof.Proof.KernelPieces
import proofs.«169772_j54537494724893_2_alg».proof.Proof.KernelPayload
import proofs.«169772_j54537494724893_2_alg».proof.Proof.Spec
import Idealize.ShloMosaic.Lib.Pipeline.Value
import Idealize.ShloMosaic.Lib.StableHlo.Run
import Idealize.ShloMosaic.Lib.ValueLayout
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.NearestMean

variable (m : (ℓ : Loc nD τ sig) → Buf (Elt Ideal) ℓ) (ρ : Dev nD → PrngReg)

/-- The blocks' positions, decided over the grid: the first set's and the output's row block is `t / 4`, the second
    set's column block is `t % 4`. -/
theorem idx_facts : ∀ t : Fin cfg0.N, win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- The region finds the second window's array as the host's transpose of the second argument. -/
theorem V_transposed (c : Dev nD) :
    (V m c main_v0 : S2x16384.Idx → EReal)
      = transpose S2x16384 [1, 0] (m ((c : Thread nD τ).loc main_arg1)) transposes_S16384x2_S2x16384_1_0 := by
  show StableHlo.after hostOps0 (fun b => m (c, b)) (Proc.devRef .tc main_v0) = _
  after_results

/-- Row `p` of the first window's block at point `t` is row `1024 (t / 4) + p` of the first argument. -/
theorem blockA_apply (c : Dev nD) (t : Fin cfg0.N) (p : Fin 1024) (k : Fin 2) (r : Fin 16384)
    (hr : r.val = t.val / 4 * 1024 + p.val) :
    (iblk m c 0 t : Vec Ideal S1024x2 .f32) (ix2 p k) = m ((c : Thread nD τ).loc main_arg0) (ix2 r k) := by
  obtain ⟨e0, e1, -, -, -, -⟩ := idx_facts t
  unfold iblk
  rw [View.read_apply]
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = r.val; omega
  | ⟨1, _⟩ => show win0_0.index t (1 : Fin 2) * 2 + 1 * k.val = k.val; omega

/-- Column `q` of the second window's block at point `t` is point `4096 (t % 4) + q` of the second argument, coordinate by
    coordinate. -/
theorem blockB_apply (c : Dev nD) (t : Fin cfg0.N) (k : Fin 2) (q : Fin 4096) (cl : Fin 16384)
    (hc : cl.val = t.val % 4 * 4096 + q.val) :
    (iblk m c 1 t : Vec Ideal S2x4096 .f32) (ix2 k q) = m ((c : Thread nD τ).loc main_arg1) (ix2 cl k) := by
  obtain ⟨-, -, e2, e3, -, -⟩ := idx_facts t
  have e : ((cfg0.win 1).blk t).view.emb (ix2 k q) = (ix2 k cl : S2x16384.Idx) := funext fun a => Fin.ext (by
    match a with
    | ⟨0, _⟩ => show win0_1.index t (0 : Fin 2) * 2 + 1 * k.val = k.val; omega
    | ⟨1, _⟩ => show win0_1.index t (1 : Fin 2) * 4096 + 1 * q.val = cl.val; omega)
  unfold iblk
  rw [View.read_apply]
  show V m c main_v0 (((cfg0.win 1).blk t).view.emb (ix2 k q)) = _
  rw [e, V_transposed, transpose_ix2_apply]

/-- The two argument arrays as the specification's point sets. -/
abbrev ptsA (c : Dev nD) : Pts := m ((c : Thread nD τ).loc main_arg0)
abbrev ptsB (c : Dev nD) : Pts := m ((c : Thread nD τ).loc main_arg1)

/-- THE RUNNING MINIMUM. After point `n` the scratch entry of row `p` is below exactly the common lower bounds of the pair
    terms of row `1024 (n / 4) + p` against the columns before `4096 (n % 4 + 1)`: at the first column block of a row block
    the step starts from +inf, later it starts from what the point before left, whose columns are those before this
    block. -/
theorem acc_lower_bounds (c : Dev nD) : ∀ (n : ℕ) (hn : n < cfg0.N) (p : Fin 1024) (r : Fin 16384)
    (hr : r.val = n / 4 * 1024 + p.val) (z : EReal),
    z ≤ (outsAt0 m c n hn).2 (ix2 p 0)
      ↔ ∀ cl : Fin 16384, cl.val < (n % 4 + 1) * 4096 → z ≤ pairK (ptsA m c) (ptsB m c) r cl := by
  intro n
  induction n using Nat.strong_induction_on with
  | _ n ih =>
    intro hn p r hr z
    have hj : n % 4 < 4 := Nat.mod_lt _ (by decide)
    have hA : ∀ k : Fin 2, (iblk m c 0 ⟨n, hn⟩ : Vec Ideal S1024x2 .f32) (ix2 p k) = ptsA m c (ix2 r k) :=
      fun k => blockA_apply m c ⟨n, hn⟩ p k r hr
    have hB : ∀ (k : Fin 2) (q : Fin 4096), (iblk m c 1 ⟨n, hn⟩ : Vec Ideal S2x4096 .f32) (ix2 k q) = ptsB m c (ix2 (col (n % 4) hj q) k) :=
      fun k q => blockB_apply m c ⟨n, hn⟩ k q (col (n % 4) hj q) rfl
    by_cases h0 : n % 4 = 0
    · have h1 : ¬n % 4 = 3 := by omega
      rw [outsAt0_A m c ⟨n, hn⟩ h0 h1]
      dsimp only
      rw [Pieces.scratch_first c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩)]
      refine Payload.step_lower_bounds (iblk m c 0 ⟨n, hn⟩) (iblk m c 1 ⟨n, hn⟩) (k0_pay1 (F := Ideal)) (ptsA m c) (ptsB m c) r (n % 4) hj p hA hB ?_ z
      intro z'
      rw [h0]
      exact Payload.inf_column_lower_bounds (ptsA m c) (ptsB m c) r p z'
    · have hn1 : n - 1 < cfg0.N := Nat.lt_of_le_of_lt (Nat.sub_le _ _) hn
      have hr' : r.val = (n - 1) / 4 * 1024 + p.val := by omega
      have e : (n - 1) % 4 + 1 = n % 4 := by omega
      have hP : ∀ z' : EReal, z' ≤ (outsAt0 m c (n - 1) hn1).2 (ix2 p 0)
          ↔ ∀ cl : Fin 16384, cl.val < n % 4 * 4096 → z' ≤ pairK (ptsA m c) (ptsB m c) r cl := by
        intro z'
        rw [← e]
        exact ih (n - 1) (by omega) hn1 p r hr' z'
      by_cases h1 : n % 4 = 3
      · rw [outsAt0_C m c ⟨n, hn⟩ h0 h1]
        dsimp only
        rw [Pieces.scratch_last c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) ((hcond0_1 ⟨n, hn⟩).mpr h1) (iblk m c 0 ⟨n, hn⟩) (iblk m c 1 ⟨n, hn⟩) (outsAt0 m c (n - 1) hn1).2]
        exact Payload.step_lower_bounds (iblk m c 0 ⟨n, hn⟩) (iblk m c 1 ⟨n, hn⟩) (outsAt0 m c (n - 1) hn1).2 (ptsA m c) (ptsB m c) r (n % 4) hj p hA hB hP z
      · rw [outsAt0_B m c ⟨n, hn⟩ h0 h1]
        dsimp only
        rw [Pieces.scratch_middle c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (outsAt0 m c (n - 1) hn1).2]
        exact Payload.step_lower_bounds (iblk m c 0 ⟨n, hn⟩) (iblk m c 1 ⟨n, hn⟩) (outsAt0 m c (n - 1) hn1).2 (ptsA m c) (ptsB m c) r (n % 4) hj p hA hB hP z

/-- The output array of the region as the specification has it: entry `(r, 0)` is row `r`'s value. -/
def rows (c : Dev nD) : S16384x1.Idx → EReal := fun i => rowK (ptsA m c) (ptsB m c) ⟨(i 0).val, idx2_lt0 i⟩

/-- At a fourth column block the scratch entry has seen every column, and the output block's entry of row `p` is the
    blockwise row value of row `1024 (t / 4) + p`. -/
theorem out_block_apply (c : Dev nD) (t : Fin cfg0.N) (h3 : t.val % 4 = 3) (y : S1024x1.Idx) (r : Fin 16384)
    (hr : r.val = t.val / 4 * 1024 + (y 0).val) :
    (outsAt0 m c t.val t.isLt).1 y = rowK (ptsA m c) (ptsB m c) r := by
  obtain ⟨p, u, rfl⟩ : ∃ (p : Fin 1024) (u : Fin 1), y = ix2 p u := ⟨y 0, y 1, eq_ix2 y⟩
  obtain rfl : u = 0 := Subsingleton.elim _ _
  have h0 : ¬t.val % 4 = 0 := by omega
  have hn1 : t.val - 1 < cfg0.N := Nat.lt_of_le_of_lt (Nat.sub_le _ _) t.isLt
  rw [outsAt0_C m c t h0 h3]
  dsimp only
  rw [Pieces.out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h3) (iblk m c 0 t) (iblk m c 1 t) (outsAt0 m c (t.val - 1) hn1).2]
  have hj : t.val % 4 < 4 := Nat.mod_lt _ (by decide)
  have hr0 : r.val = t.val / 4 * 1024 + p.val := hr
  refine Payload.finish_row (iblk m c 0 t) (k0_pay2 (F := Ideal) (iblk m c 0 t) (iblk m c 1 t) (outsAt0 m c (t.val - 1) hn1).2) (ptsA m c) (ptsB m c) r p
    (fun k => blockA_apply m c t p k r hr0) ?_
  intro z
  have e : (t.val - 1) % 4 + 1 = t.val % 4 := by omega
  have hP : ∀ z' : EReal, z' ≤ (outsAt0 m c (t.val - 1) hn1).2 (ix2 p 0)
      ↔ ∀ cl : Fin 16384, cl.val < t.val % 4 * 4096 → z' ≤ pairK (ptsA m c) (ptsB m c) r cl := by
    intro z'
    rw [← e]
    exact acc_lower_bounds m c (t.val - 1) hn1 p r (by omega) z'
  have hstep := Payload.step_lower_bounds (iblk m c 0 t) (iblk m c 1 t) (outsAt0 m c (t.val - 1) hn1).2 (ptsA m c) (ptsB m c) r (t.val % 4) hj p
    (fun k => blockA_apply m c t p k r hr0) (fun k q => blockB_apply m c t k q (col (t.val % 4) hj q) rfl) hP z
  rw [h3] at hstep
  exact hstep

/-- What a point writes back is its block of the column of row values. -/
theorem flushed_eq (c : Dev nD) (t : Fin cfg0.N) (hf : (cfg0.win 2).flush t = true) :
    (dats m 0 c).flushed 2 t = ((cfg0.win 2).blk t).view.read (Elt Ideal) (rows m c) := by
  have h3 : t.val % 4 = 3 := (flush0_2 t).mp hf
  obtain ⟨-, -, -, -, e4, e5⟩ := idx_facts t
  show (cfg0.win 2).cut (grid0.coords t) ((dats m 0 c).after 2 t) = _
  rw [after0_2]
  funext y
  rw [View.read_apply]
  refine out_block_apply m c t h3 y _ ?_
  show win0_2.index t (0 : Fin 2) * 1024 + 1 * (y 0).val = _
  omega

/-- Row `r` lies in the block written back at point `4 (r / 1024) + 3`, so the output array ends at the column of row
    values. -/
theorem final_rows (c : Dev nD) : (dats m 0 c).arrAt 2 cfg0.N = rows m c :=
  (dats m 0 c).arrAt_eq_of_cover 2 (rows m c) (flushed_eq m c) fun i => by
    have hi0 : (i 0).val < 16384 := idx2_lt0 i
    have hi1 : (i 1).val < 1 := idx2_lt1 i
    have hN : cfg0.N = 64 := N_0
    have ht : (i 0).val / 1024 * 4 + 3 < cfg0.N := by rw [hN]; omega
    refine ⟨⟨(i 0).val / 1024 * 4 + 3, ht⟩, (flush0_2 _).mpr (by show ((i 0).val / 1024 * 4 + 3) % 4 = 3; omega), ?_⟩
    obtain ⟨-, -, -, -, e4, e5⟩ := idx_facts ⟨(i 0).val / 1024 * 4 + 3, ht⟩
    show i ∈ ((View.whole main_v1).slice (win0_2.rect ⟨(i 0).val / 1024 * 4 + 3, ht⟩)).set
    rw [View.set_slice_whole, Rect.mem_set_unit]
    intro a
    match a with
    | ⟨0, _⟩ =>
      show win0_2.index ⟨(i 0).val / 1024 * 4 + 3, ht⟩ (0 : Fin 2) * 1024 ≤ (i 0).val ∧ (i 0).val < win0_2.index ⟨(i 0).val / 1024 * 4 + 3, ht⟩ (0 : Fin 2) * 1024 + 1024
      rw [e4]; show ((i 0).val / 1024 * 4 + 3) / 4 * 1024 ≤ (i 0).val ∧ (i 0).val < ((i 0).val / 1024 * 4 + 3) / 4 * 1024 + 1024
      omega
    | ⟨1, _⟩ =>
      show win0_2.index ⟨(i 0).val / 1024 * 4 + 3, ht⟩ (1 : Fin 2) * 1 ≤ (i 1).val ∧ (i 1).val < win0_2.index ⟨(i 0).val / 1024 * 4 + 3, ht⟩ (1 : Fin 2) * 1 + 1
      rw [e5]; omega

/-- The host operations after the region: the sum of the column from the zero, divided by 16384. -/
def tail (v : S16384x1.Idx → EReal) : S_.Idx → EReal :=
  Host.divf (F := Ideal) (Host.reduceAdd (F := Ideal) v (constant (F := Ideal) S_ .f32 0x00000000#32) reducesTo_S16384x1_S_d0_1 h_S_)
    (constant (F := Ideal) S_ .f32 0x46800000#32)

/-- The program's result is the host tail of the column the region leaves. -/
theorem result_eq (c : Dev nD) :
    Pipeline.afterTail₀ cfgs (dats m) 0 (V0 m) [hostOps1] c main_v3 = tail (rows m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v1)
      = rows m c :=
    (Pipeline.withArrays_arr spec0 launch0.win.arr_inj c _ _ 2).trans (final_rows m c)
  rw [e]
  rfl

/-- The tail of a column whose entries are the row values is the mean of the row values. -/
theorem tail_rows (c : Dev nD) (i : S_.Idx) :
    tail (rows m c) i = mean (fun r => rowK (ptsA m c) (ptsB m c) r) := by
  unfold tail mean
  show Ideal.div (Ideal.hostReduceAdd reducesTo_S16384x1_S_d0_1 (rows m c) (Ideal.ofBits .f32 0x00000000#32) _) _ = _
  rw [Ideal.hostReduceAdd_total reducesTo_S16384x1_S_d0_1 (fun b => b.elim0), sum_idx2]
  simp only [Fin.sum_univ_one]
  rfl

/-- The run of the idealized kernel, read: its result is the mean of the blockwise arrangement's row values of the
    argument arrays, which end unchanged. -/
theorem run : θ_run defs (onTc (τ := τ) (main (F := Ideal))) ⟨m, fun _ => 0, ρ⟩ fun r => ∀ c : Dev nD,
      r.2.mem ((c.tc : Thread nD τ).loc main_v3) = (fun _ => mean (fun r => rowK (ptsA m c) (ptsB m c) r))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((result_eq m c).trans (funext fun i => tail_rows m c i)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Acc

end
-- ==== Proof.lean ====
/-
  The certificate: the Pallas kernel for the mean nearest-neighbour squared distance of two sets of 16384 points of the
  plane, against its jnp reference, over the extended reals.

  Both programs end with the mean over the rows `r` of a row value. The reference's is the minimum over the columns
  `c` of `(|a_r|^2 + |b_c|^2) - 2 (a_r . b_c)`; the kernel's is `|a_r|^2` added to the minimum over the columns of
  `|b_c|^2 - 2 (a_r . b_c)`, the minimum taken four blocks of columns in turn in a carried scratch column. The two row
  values agree when all coordinates are real numbers, which the precondition says (adding `|a_r|^2` commutes with the
  minimum only for a finite `|a_r|^2`). The three frames are the generated frame proofs and the reference's generated
  run; the idealized kernel is the kernel's own text read over the extended reals, so nothing is owed for it.
-/
import proofs.«169772_j54537494724893_2_alg».proof.Defs
import proofs.«169772_j54537494724893_2_alg».proof.Proof.Gen.Kernel
import proofs.«169772_j54537494724893_2_alg».proof.Proof.Gen.Kernel.Skeleton
import proofs.«169772_j54537494724893_2_alg».proof.Proof.Gen.Kernel.Launch
import proofs.«169772_j54537494724893_2_alg».proof.Proof.Gen.Kernel.Points
import proofs.«169772_j54537494724893_2_alg».proof.Proof.Gen.Kernel.Frame
import proofs.«169772_j54537494724893_2_alg».proof.Proof.Gen.KernelIdeal
import proofs.«169772_j54537494724893_2_alg».proof.Proof.Gen.KernelIdeal.Skeleton
import proofs.«169772_j54537494724893_2_alg».proof.Proof.Gen.KernelIdeal.Launch
import proofs.«169772_j54537494724893_2_alg».proof.Proof.Gen.KernelIdeal.Points
import proofs.«169772_j54537494724893_2_alg».proof.Proof.Gen.KernelIdeal.Frame
import proofs.«169772_j54537494724893_2_alg».proof.Proof.Gen.ReferenceIdeal
import proofs.«169772_j54537494724893_2_alg».proof.Proof.Gen.Pre_finite_inputs
import proofs.«169772_j54537494724893_2_alg».proof.Proof.Gen.ReferenceIdeal.Run
import proofs.«169772_j54537494724893_2_alg».proof.Proof.Gen.ReferenceIdeal.Read
import proofs.«169772_j54537494724893_2_alg».proof.Proof.Spec
import proofs.«169772_j54537494724893_2_alg».proof.Proof.Finite
import proofs.«169772_j54537494724893_2_alg».proof.Proof.RefValue
import proofs.«169772_j54537494724893_2_alg».proof.Proof.KernelValue
import Idealize.ShloMosaic.Adequacy
import Idealize.ShloMosaic.Init

noncomputable section

namespace Cert.Proof

open Idealize.ShloMosaic Idealize.ShloMosaic.TcCoe Idealize.SL.Sem Cert.NearestMean

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the mean of their row values of the same two point sets, and on real coordinates the row values
    are equal. -/
theorem algebraic : Cert.algebraic_KernelIdeal_ReferenceIdeal := by
  intro m ρ m' ρ' hpre hagree
  refine ⟨fun c => fun _ => mean (fun r => rowK (Cert.KernelIdeal.Acc.ptsA m c) (Cert.KernelIdeal.Acc.ptsB m c) r),
    Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, (hagree c).1, (hagree c).2]
  funext i
  rw [Cert.ReferenceIdeal.RefValue.result_eq]
  obtain ⟨hA, hB⟩ := Cert.Pre_finite_inputs.Finite.real_of_pre _ _ (hpre c)
  exact congrArg mean (funext fun r => (rowK_eq_rowR _ _ hA hB r).symm)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
